-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : IVec S100000x64 1) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S5000x128 : Shape := ⟨2, ![5000, 128]⟩
abbrev S5000x64 : Shape := ⟨2, ![5000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩

abbrev nBuf : Space → Nat
  | .hbm => 26
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x64, .i1⟩
  | .hbm, ⟨5, _⟩ => ⟨S128x64, .f32⟩
  | .hbm, ⟨6, _⟩ => ⟨S64, .f32⟩
  | .hbm, ⟨7, _⟩ => ⟨S100000x64, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .i32⟩
  | .local _ .vmem, ⟨5, _⟩ => ⟨S5000x64, .i32⟩
  | .local _ .vmem, ⟨6, _⟩ => ⟨S5000x64, .f32⟩
  | .local _ .vmem, ⟨7, _⟩ => ⟨S5000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  natLt_1_32 : 1 < 32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .i32 = 32 ∨ (Rect.block (s := S100000x64) S5000x64.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x64, .i1⟩
  | .hbm, ⟨5, _⟩ => ⟨S128x64, .f32⟩
  | .hbm, ⟨6, _⟩ => ⟨S64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S_, .f32⟩
  | .hbm, ⟨12, _⟩ => ⟨S100000x64, .f32⟩
  | .hbm, ⟨13, _⟩ => ⟨S100000x64, .f32⟩
  | .hbm, ⟨14, _⟩ => ⟨S_, .f32⟩
  | .hbm, ⟨15, _⟩ => ⟨S_, .f32⟩
  | .hbm, ⟨16, _⟩ => ⟨S100000x64, .f32⟩
  | .hbm, ⟨17, _⟩ => ⟨S100000x64, .f32⟩
  | .hbm, ⟨18, _⟩ => ⟨S1600000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.Payload.lean ====
/-
  What the two kernel bodies store, read at an index, on the extended reals.

  The first body's stored block at row `p`, feature `q` of a 5000-row tile: the inner product of the
  tile's row `p` with column `q` of the weights (the two roundings to half precision on the way into
  the product are the identity on extended reals; the product accumulates into zero), plus the bias at
  `q`, times the scale, where the tile's mask word is non-zero, and zero elsewhere.
  The second body's stored block is the larger of its input and zero, entry by entry.
-/
import proofs.«155886_j43877385896092_1_alg».proof.Proof.Gen.KernelIdeal.Skeleton
import proofs.«155886_j43877385896092_1_alg».proof.Proof.LibPlainDot
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

variable [Cert.KernelIdeal.Facts]

/-- The printed product's dimension numbers are the plain rows-by-columns ones. -/
theorem dims_plain : dot_S5000x128_S128x64_S5000x64_1_0_0_1_n_n = DotDims.plain 5000 128 64 := rfl

/-- The bias vector, cast to one row and repeated down the tile, reads the bias at the column. -/
theorem bias_rows (b : Vec Ideal S64 .f32) (p : Fin 5000) (q : Fin 64) :
    broadcastTo S5000x64 (shapeCast S1x64 b Facts₀.shapeCasts_S64_S1x64) Facts₀.broadcasts_S1x64_S5000x64 (ix2 p q) = b (ix1 q) :=
  (broadcastTo_1b_ab_apply _ Facts₀.broadcasts_S1x64_S5000x64 p q).trans
    (shapeCast_a_1a_apply b Facts₀.shapeCasts_S64_S1x64 (0 : Fin 1) q)

/-- The first body's stored value at row `p`, feature `q` of the tile. -/
theorem linear_dropout_at (x0 : Vec Ideal S5000x128 .f32) (x1 : Vec Ideal S128x64 .f32) (x2 : Vec Ideal S64 .f32)
    (x3 : Vec Ideal S5000x64 .i32) (p : Fin 5000) (q : Fin 64) :
    k0_pay1 (F := Ideal) x0 x1 x2 x3 (ix2 p q)
      = Scalar.select (IntOp.cmpi .ne (x3 (ix2 p q)) 0#32)
          ((∑ k : Fin 128, x0 (ix2 p k) * x1 (ix2 k q) + x2 (ix1 q)) * Ideal.ofBits .f32 0x3F8E38E4#32)
          (Ideal.ofBits .f32 0x00000000#32) := by
  unfold k0_pay1
  rw [select_apply, mulf_apply, addf_apply, bias_rows]
  refine congrArg (fun s => Scalar.select (IntOp.cmpi .ne (x3 (ix2 p q)) 0#32)
    ((s + x2 (ix1 q)) * Ideal.ofBits .f32 0x3F8E38E4#32) (Ideal.ofBits .f32 0x00000000#32)) ?_
  rw [dims_plain]
  exact PlainDot.matmul_zero_apply 5000 128 64 none _ _ p q

/-- The second body's stored value at an index: the larger of the input and zero. -/
theorem relu_at (x0 : Vec Ideal S10000x64 .f32) (y : S10000x64.Idx) :
    k1_pay1 (F := Ideal) x0 y = max (x0 y) (Ideal.ofBits .f32 0x00000000#32) := by
  unfold k1_pay1
  rw [maximumf_apply, shapeCast_self]
  rfl

end Cert.KernelIdeal.Payload

end
-- ==== Proof.Layer.lean ====
/-
  The graph-convolution layer on the extended reals, entry by entry.

  `hiddenAt x W b keep p q` is the dropout-scaled linear layer at node `p`, feature `q`: the inner
  product of row `p` of `x` with column `q` of `W`, plus `b q`, times the single-precision scale
  (the word 0x3F8E38E4, the float nearest 10/9) where the keep bit at (p, q) is set, and zero
  where it is clear. `hidden` is that function of an index. `relu z` is `max z 0` entry by entry.
-/
import Idealize.ShloMosaic.PureOps.Ideal
import Idealize.ShloMosaic.Lib.ValueIdx

noncomputable section

open scoped BigOperators

namespace Cert.Layer

open Idealize.ShloMosaic Idealize.ShloMosaic.ValueIdx

/-- The dropout-scaled linear layer at node `p` and feature `q`. -/
def hiddenAt (x : FVec Ideal ⟨2, ![100000, 128]⟩ .f32) (W : FVec Ideal ⟨2, ![128, 64]⟩ .f32)
    (b : FVec Ideal ⟨1, ![64]⟩ .f32) (keep : IVec ⟨2, ![100000, 64]⟩ 1) (p : Fin 100000) (q : Fin 64) : EReal :=
  Scalar.select (keep (ix2 p q))
    ((∑ k : Fin 128, x (ix2 p k) * W (ix2 k q) + b (ix1 q)) * Ideal.ofBits .f32 0x3F8E38E4#32)
    (Ideal.ofBits .f32 0x00000000#32)

/-- The same as one array over the node-by-feature index. -/
def hidden (x : FVec Ideal ⟨2, ![100000, 128]⟩ .f32) (W : FVec Ideal ⟨2, ![128, 64]⟩ .f32)
    (b : FVec Ideal ⟨1, ![64]⟩ .f32) (keep : IVec ⟨2, ![100000, 64]⟩ 1) : FVec Ideal ⟨2, ![100000, 64]⟩ .f32 :=
  fun i => hiddenAt x W b keep (i 0) (i 1)

theorem hidden_ix2 (x : FVec Ideal ⟨2, ![100000, 128]⟩ .f32) (W : FVec Ideal ⟨2, ![128, 64]⟩ .f32)
    (b : FVec Ideal ⟨1, ![64]⟩ .f32) (keep : IVec ⟨2, ![100000, 64]⟩ 1) (p : Fin 100000) (q : Fin 64) :
    hidden x W b keep (ix2 p q) = hiddenAt x W b keep p q := rfl

/-- The activation: the larger of an entry and zero. -/
def relu (z : FVec Ideal ⟨2, ![100000, 64]⟩ .f32) : FVec Ideal ⟨2, ![100000, 64]⟩ .f32 :=
  fun i => max (z i) (Ideal.ofBits .f32 0x00000000#32)

/-- A keep bit widened to a word is non-zero exactly when the bit is set. -/
theorem ne_zero_of_widened (c : BitVec 1) : IntOp.cmpi .ne (c.setWidth 32) 0#32 = c := by
  rcases BitVec.eq_zero_or_eq_one c with h | h <;> subst h <;> decide

end Cert.Layer

end
-- ==== Proof.Region0.lean ====
/-
  The first kernel's result array, whatever the memory it is entered from.

  The grid has 20 points; point `t` reads rows 5000·t … 5000·t + 4999 of the features and of the
  widened mask, the whole weight matrix and the whole bias, and writes back rows 5000·t … 5000·t + 4999
  of the result. Row `p` of that block is the layer's row 5000·t + p, so each written block is a
  restriction of ONE array, `Layer.hidden` of the arrays the kernel finds, and the 20 blocks cover
  every row: the result array ends as that array.
-/
import proofs.«155886_j43877385896092_1_alg».proof.Proof.Gen.KernelIdeal.Frame
import proofs.«155886_j43877385896092_1_alg».proof.Proof.Payload
import proofs.«155886_j43877385896092_1_alg».proof.Proof.Layer
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-tiled windows sit at block row `t`, the whole-array ones at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s tile is row 5000·t + p of the array. -/
def row (t : Fin cfg0.N) (p : Fin 5000) : Fin 100000 :=
  ⟨5000 * t.val + p.val, by have := t.isLt; have hN : cfg0.N = 20 := N_0; have := p.isLt; omega⟩

/-- The feature tile at point `t`: its row `p` is the array's row 5000·t + p. -/
theorem read_x (c : Dev nD) (t : Fin cfg0.N) (p : Fin 5000) (k : Fin 128) :
    (iblk0 V c 0 t : Vec Ideal S5000x128 .f32) (ix2 p k) = (V c main_arg0 : S100000x128.Idx → EReal) (ix2 (row t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- The weight tile at every point is the whole weight matrix. -/
theorem read_w (c : Dev nD) (t : Fin cfg0.N) (k : Fin 128) (q : Fin 64) :
    (iblk0 V c 1 t : Vec Ideal S128x64 .f32) (ix2 k q) = (V c main_arg5 : S128x64.Idx → EReal) (ix2 k q) := by
  obtain ⟨-, -, e0, e1, -⟩ := idx_facts t
  unfold iblk0
  rw [View.read_apply]
  show V c main_arg5 _ = V c main_arg5 _
  congr 1
  funext a
  apply Fin.ext
  match a with
  | ⟨0, _⟩ => show win0_1.index t 0 * 128 + 1 * k.val = k.val; rw [e0]; omega
  | ⟨1, _⟩ => show win0_1.index t 1 * 64 + 1 * q.val = q.val; rw [e1]; omega

/-- The bias tile at every point is the whole bias vector. -/
theorem read_b (c : Dev nD) (t : Fin cfg0.N) (q : Fin 64) :
    (iblk0 V c 2 t : Vec Ideal S64 .f32) (ix1 q) = (V c main_arg6 : S64.Idx → EReal) (ix1 q) := by
  obtain ⟨-, -, -, -, e0, -⟩ := idx_facts t
  unfold iblk0
  rw [View.read_apply]
  show V c main_arg6 _ = V c main_arg6 _
  congr 1
  funext a
  apply Fin.ext
  match a with
  | ⟨0, _⟩ => show win0_2.index t 0 * 64 + 1 * q.val = q.val; rw [e0]; omega

/-- The mask tile at point `t`: its row `p` is the mask array's row 5000·t + p. -/
theorem read_mask (c : Dev nD) (t : Fin cfg0.N) (p : Fin 5000) (q : Fin 64) :
    (iblk0 V c 3 t : Vec Ideal S5000x64 .i32) (ix2 p q) = (V c main_v0 : S100000x64.Idx → BitVec 32) (ix2 (row t p) q) := by
  obtain ⟨-, -, -, -, -, e0, e1, -⟩ := idx_facts t
  unfold iblk0
  rw [View.read_apply]
  show V c main_v0 _ = V c main_v0 _
  congr 1
  funext a
  apply Fin.ext
  match a with
  | ⟨0, _⟩ => show win0_3.index t 0 * 5000 + 1 * p.val = 5000 * t.val + p.val; rw [e0]; omega
  | ⟨1, _⟩ => show win0_3.index t 1 * 64 + 1 * q.val = q.val; rw [e1]; omega

/-- Where entry (p, q) of point `t`'s result block lies in the result array. -/
theorem out_pos (t : Fin cfg0.N) (p : Fin 5000) (q : Fin 64) :
    (((cfg0.win 4).blk t).view.emb (ix2 p q) : S100000x64.Idx) = ix2 (row t p) q := by
  obtain ⟨-, -, -, -, -, -, -, e0, e1⟩ := idx_facts t
  funext a
  apply Fin.ext
  match a with
  | ⟨0, _⟩ => show win0_4.index t 0 * 5000 + 1 * p.val = 5000 * t.val + p.val; rw [e0]; omega
  | ⟨1, _⟩ => show win0_4.index t 1 * 64 + 1 * q.val = q.val; rw [e1]; omega

/-- The layer over the arrays the kernel finds: the keep bit is "the mask word is not zero". -/
abbrev found (c : Dev nD) : FVec Ideal ⟨2, ![100000, 64]⟩ .f32 :=
  Layer.hidden (V c main_arg0) (V c main_arg5) (V c main_arg6) (fun i => IntOp.cmpi .ne ((V c main_v0 : S100000x64.Idx → BitVec 32) i) 0#32)

/-- What point `t` stores at (p, q) of its block is the layer at row 5000·t + p, feature q. -/
theorem stored_eq (c : Dev nD) (t : Fin cfg0.N) (y : S5000x64.Idx) :
    k0_pay1 (F := Ideal) (iblk0 V c 0 t) (iblk0 V c 1 t) (iblk0 V c 2 t) (iblk0 V c 3 t) y
      = found V c (((cfg0.win 4).blk t).view.emb y) := by
  obtain ⟨p, q, rfl⟩ : ∃ (p : Fin 5000) (q : Fin 64), y = ix2 p q := ⟨y 0, y 1, eq_ix2 y⟩
  refine (Payload.linear_dropout_at (iblk0 V c 0 t) (iblk0 V c 1 t) (iblk0 V c 2 t) (iblk0 V c 3 t) p q).trans ?_
  rw [out_pos t p q]
  show _ = Layer.hiddenAt _ _ _ _ (row t p) q
  unfold Layer.hiddenAt
  rw [read_mask V c t p q, read_b V c t q]
  simp only [read_x V c t p, read_w V c t]

/-- WHAT POINT `t` WRITES BACK is block `t` of the layer over the arrays the kernel finds. -/
theorem flushed_eq (c : Dev nD) (t : Fin cfg0.N) :
    (dat0 V c).flushed 4 t = ((cfg0.win 4).blk t).view.read (Elt Ideal) (found V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz, View.ld_unit_zero (S := S64) hz1,
    View.ld_unit_zero (S := S5000x64) hz]
  funext y
  exact stored_eq V c t y

/-- An index of the result array is in point `t`'s block iff its row lies in rows 5000·t … 5000·t + 4999. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v1).slice (win0_4.rect t)).set ↔ _
  rw [View.set_slice_whole, Rect.mem_set_unit]
  exact Iff.rfl

/-- Every row of the result array lies in the block of the point its quotient by 5000 names. -/
theorem covered (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, e0, e1⟩ := idx_facts t
  have ht : t.val = (i 0).val / 5000 := rfl
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 64 ≤ (i 1).val ∧ (i 1).val < win0_4.index t (1 : Fin 2) * 64 + 64; rw [e1]; omega

/-- THE RESULT ARRAY of the first kernel: the layer over the arrays the kernel finds. -/
theorem result (c : Dev nD) : (dat0 V c).arrAt 4 cfg0.N = found V c :=
  (dat0 V c).arrAt_eq_of_cover 4 (found V c) (fun t _ => flushed_eq V c t) (covered)

end Cert.KernelIdeal.Region0

end
-- ==== Proof.Region1.lean ====
/-
  The second kernel's result array, whatever the memory it is entered from.

  The grid has 10 points; point `t` reads rows 10000·t … 10000·t + 9999 of its input and writes back
  the same rows of the result, each entry the larger of the input's entry and zero. Each written block
  is a restriction of ONE array, `Layer.relu` of the input array the kernel finds, and the 10 blocks
  cover every row.
-/
import proofs.«155886_j43877385896092_1_alg».proof.Proof.Gen.KernelIdeal.Frame
import proofs.«155886_j43877385896092_1_alg».proof.Proof.Payload
import proofs.«155886_j43877385896092_1_alg».proof.Proof.Layer
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both windows sit at block row `t`. -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- The input's array as the kernel finds it. -/
abbrev input (c : Dev nD) : FVec Ideal ⟨2, ![100000, 64]⟩ .f32 := (V c main_v14 : S100000x64.Idx → EReal)

/-- The input block and the result block of a point are the same rows. -/
theorem same_rows (t : Fin cfg1.N) (y : S10000x64.Idx) :
    (((cfg1.win 0).blk t).view.emb y : S100000x64.Idx) = ((cfg1.win 1).blk t).view.emb y := by
  obtain ⟨e0, e1, -⟩ := idx_facts t
  funext a
  apply Fin.ext
  match a with
  | ⟨0, _⟩ => show win1_0.index t (0 : Fin 2) * 10000 + 1 * (y 0).val = win1_1.index t (0 : Fin 2) * 10000 + 1 * (y 0).val; rw [e0]
  | ⟨1, _⟩ => show win1_0.index t (1 : Fin 2) * 64 + 1 * (y 1).val = win1_1.index t (1 : Fin 2) * 64 + 1 * (y 1).val; rw [e1]

/-- The input tile at point `t` reads the input array at the place of the result block's entry. -/
theorem read_in (c : Dev nD) (t : Fin cfg1.N) (y : S10000x64.Idx) :
    (iblk1 V c 0 t : Vec Ideal S10000x64 .f32) y = input V c (((cfg1.win 1).blk t).view.emb y) := by
  unfold iblk1
  rw [View.read_apply, ← same_rows t y]
  rfl

/-- What point `t` stores at an entry of its block is the activation of the input at that entry's place. -/
theorem stored_eq (c : Dev nD) (t : Fin cfg1.N) (y : S10000x64.Idx) :
    k1_pay1 (F := Ideal) (iblk1 V c 0 t) y = Layer.relu (input V c) (((cfg1.win 1).blk t).view.emb y) :=
  (Payload.relu_at (iblk1 V c 0 t) y).trans
    (congrArg (fun z : EReal => max z (Ideal.ofBits .f32 0x00000000#32)) (read_in V c t y))

/-- WHAT POINT `t` WRITES BACK is block `t` of the activation of the input array. -/
theorem flushed_eq (c : Dev nD) (t : Fin cfg1.N) :
    (dat1 V c).flushed 1 t = ((cfg1.win 1).blk t).view.read (Elt Ideal) (Layer.relu (input V c)) := by
  show (cfg1.win 1).cut (grid1.coords t) ((dat1 V c).after 1 t) = _
  rw [after1_1]
  unfold out1_1
  rw [View.canon_unit_zero hz]
  simp only [View.ld_unit_zero (S := S10000x64) hz]
  funext y
  exact stored_eq V c t y

/-- An index of the result array is in point `t`'s block iff its row lies in rows 10000·t … 10000·t + 9999. -/
theorem mem_blk (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v15).slice (win1_1.rect t)).set ↔ _
  rw [View.set_slice_whole, Rect.mem_set_unit]
  exact Iff.rfl

/-- Every row of the result array lies in the block of the point its quotient by 10000 names. -/
theorem covered (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, e0, e1⟩ := idx_facts t
  have ht : t.val = (i 0).val / 10000 := rfl
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; rw [e0, ht]; omega
  | ⟨1, _⟩ => show win1_1.index t (1 : Fin 2) * 64 ≤ (i 1).val ∧ (i 1).val < win1_1.index t (1 : Fin 2) * 64 + 64; rw [e1]; omega

/-- THE RESULT ARRAY of the second kernel: the activation of the input array the kernel finds. -/
theorem result (c : Dev nD) : (dat1 V c).arrAt 1 cfg1.N = Layer.relu (input V c) :=
  (dat1 V c).arrAt_eq_of_cover 1 (Layer.relu (input V c)) (fun t _ => flushed_eq V c t) (covered)

end Cert.KernelIdeal.Region1

end
-- ==== Proof.HostChain.lean ====
/-
  The host operations around the two kernels, read back as functions of what they find.

  Before the first kernel the keep mask is widened from bits to words. Between the kernels the hidden
  features are gathered along the edges' column indices (an index below zero first moved up by the node
  count), weighted by the edge values and added into the rows the row indices name, starting from zero:
  `support`, one function of the hidden features, the two index vectors and the edge values. It is
  carried whole; nothing here looks inside the gather or the scatter-add.
-/
import proofs.«155886_j43877385896092_1_alg».proof.Proof.Gen.KernelIdeal.Launch
import Idealize.ShloMosaic.Lib.StableHlo.Run

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F] [Cert.KernelIdeal.Facts]

/-- Messages along the edges, summed into their destination rows. -/
def support (h : (⟨S100000x64, .f32⟩ : BufTy).Contents (Elt F)) (row col : (⟨S1600000, .i32⟩ : BufTy).Contents (Elt F))
    (adj : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 row)
    (mulf (broadcastInDim S1600000x64 ![0, 1] bcast_S1600000x1_S1600000x64_0_1 (broadcastInDim S1600000x1 ![0] bcast_S1600000_S1600000x1_0 adj))
      (Host.gather gather_S100000x64_S1600000x1_S1600000x64_1_0_n_n_0_1_164 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- After the operations between the kernels, the second kernel's input holds `support` of what they found. -/
theorem between (W : Valuation τ sig (Elt F)) :
    after hostOps1 W (Proc.devRef .tc main_v14)
      = support (W (Proc.devRef .tc main_v1)) (W (Proc.devRef .tc main_arg1)) (W (Proc.devRef .tc main_arg2)) (W (Proc.devRef .tc main_arg3)) := by
  after_results
  rfl

/-- After the operation before the first kernel, its mask operand holds the keep bits widened to words. -/
theorem mask_words (W : Valuation τ sig (Elt F)) :
    after hostOps0 W (Proc.devRef .tc main_v0) = extui 32 (W (Proc.devRef .tc main_arg4)) natLt_1_32 := by
  after_results

/-- That operation leaves the arguments as they were. -/
theorem before_arg0 (W : Valuation τ sig (Elt F)) : after hostOps0 W (Proc.devRef .tc main_arg0) = W (Proc.devRef .tc main_arg0) := by
  after_results
theorem before_arg1 (W : Valuation τ sig (Elt F)) : after hostOps0 W (Proc.devRef .tc main_arg1) = W (Proc.devRef .tc main_arg1) := by
  after_results
theorem before_arg2 (W : Valuation τ sig (Elt F)) : after hostOps0 W (Proc.devRef .tc main_arg2) = W (Proc.devRef .tc main_arg2) := by
  after_results
theorem before_arg3 (W : Valuation τ sig (Elt F)) : after hostOps0 W (Proc.devRef .tc main_arg3) = W (Proc.devRef .tc main_arg3) := by
  after_results
theorem before_arg5 (W : Valuation τ sig (Elt F)) : after hostOps0 W (Proc.devRef .tc main_arg5) = W (Proc.devRef .tc main_arg5) := by
  after_results
theorem before_arg6 (W : Valuation τ sig (Elt F)) : after hostOps0 W (Proc.devRef .tc main_arg6) = W (Proc.devRef .tc main_arg6) := by
  after_results

end Cert.KernelIdeal.HostChain

end
-- ==== Proof.KernelValue.lean ====
/-
  The kernel program's result as a function of its arguments.

  From the launch memory: the mask is widened to words; the first kernel leaves the layer's features
  (the keep bit "the widened word is not zero" is the mask bit itself); the operations between the
  kernels leave the messages summed into their rows, `support` of those features and of the index and
  edge-value arguments, which nothing before them has changed; the second kernel leaves the activation.
-/
import proofs.«155886_j43877385896092_1_alg».proof.Proof.FrameResult
import proofs.«155886_j43877385896092_1_alg».proof.Proof.Region0
import proofs.«155886_j43877385896092_1_alg».proof.Proof.Region1
import proofs.«155886_j43877385896092_1_alg».proof.Proof.HostChain

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The layer's features, from the launch memory. -/
abbrev features (c : Dev nD) : FVec Ideal ⟨2, ![100000, 64]⟩ .f32 :=
  Layer.hidden (m ((c.tc : Thread nD τ).loc main_arg0)) (m ((c.tc : Thread nD τ).loc main_arg5))
    (m ((c.tc : Thread nD τ).loc main_arg6)) (m ((c.tc : Thread nD τ).loc main_arg4))

/-- The program's result, from the launch memory. -/
abbrev out (c : Dev nD) : Buf (Elt Ideal) ((c.tc : Thread nD τ).loc main_v15) :=
  Layer.relu (HostChain.support (F := Ideal) (features m c) (m ((c.tc : Thread nD τ).loc main_arg1))
    (m ((c.tc : Thread nD τ).loc main_arg2)) (m ((c.tc : Thread nD τ).loc main_arg3)))

/-- The first kernel finds its three float operands as launched … -/
theorem found_x (c : Dev nD) : V1 m ρ c main_arg0 = m ((c.tc : Thread nD τ).loc main_arg0) := HostChain.before_arg0 (W0 m ρ c)
theorem found_w (c : Dev nD) : V1 m ρ c main_arg5 = m ((c.tc : Thread nD τ).loc main_arg5) := HostChain.before_arg5 (W0 m ρ c)
theorem found_b (c : Dev nD) : V1 m ρ c main_arg6 = m ((c.tc : Thread nD τ).loc main_arg6) := HostChain.before_arg6 (W0 m ρ c)
/-- … and its mask operand at the launched mask widened to words. -/
theorem found_mask (c : Dev nD) : V1 m ρ c main_v0 = extui 32 (m ((c.tc : Thread nD τ).loc main_arg4)) natLt_1_32 :=
  HostChain.mask_words (W0 m ρ c)

/-- After the first kernel its result array holds the layer's features. -/
theorem features_value (c : Dev nD) : W2 m ρ c (Proc.devRef .tc main_v1) = features m c := by
  refine (W2_arr m ρ c 4).trans ((Region0.result (V1 m ρ) c).trans ?_)
  show Layer.hidden (V1 m ρ c main_arg0) (V1 m ρ c main_arg5) (V1 m ρ c main_arg6)
    (fun i => IntOp.cmpi .ne ((V1 m ρ c main_v0 : S100000x64.Idx → BitVec 32) i) 0#32) = _
  rw [found_x, found_w, found_b, found_mask]
  refine congrArg (Layer.hidden _ _ _) (funext fun i => ?_)
  exact Layer.ne_zero_of_widened _

/-- The index and edge-value arguments are as launched when the operations between the kernels read them. -/
theorem kept_row (c : Dev nD) : W2 m ρ c (Proc.devRef .tc main_arg1) = m ((c.tc : Thread nD τ).loc main_arg1) :=
  (W2_of_ne m ρ c main_arg1 (by decide)).trans (HostChain.before_arg1 (W0 m ρ c))
theorem kept_col (c : Dev nD) : W2 m ρ c (Proc.devRef .tc main_arg2) = m ((c.tc : Thread nD τ).loc main_arg2) :=
  (W2_of_ne m ρ c main_arg2 (by decide)).trans (HostChain.before_arg2 (W0 m ρ c))
theorem kept_adj (c : Dev nD) : W2 m ρ c (Proc.devRef .tc main_arg3) = m ((c.tc : Thread nD τ).loc main_arg3) :=
  (W2_of_ne m ρ c main_arg3 (by decide)).trans (HostChain.before_arg3 (W0 m ρ c))

/-- The second kernel finds the messages summed from the layer's features. -/
theorem support_value (c : Dev nD) : V3 m ρ c main_v14 = HostChain.support (F := Ideal) (features m c)
    (m ((c.tc : Thread nD τ).loc main_arg1)) (m ((c.tc : Thread nD τ).loc main_arg2)) (m ((c.tc : Thread nD τ).loc main_arg3)) := by
  refine (HostChain.between (W2 m ρ c)).trans ?_
  rw [features_value, kept_row, kept_col, kept_adj]

/-- THE RESULT BUFFER after the run. -/
theorem result_value (c : Dev nD) : W4 m ρ c (Proc.devRef .tc main_v15) = out m c := by
  refine (W4_arr m ρ c 1).trans ((Region1.result (V3 m ρ) c).trans ?_)
  show Layer.relu (V3 m ρ c main_v14) = _
  rw [support_value]

/-- The run, read: the result at `out` of the launch memory, the arguments unchanged. -/
theorem run : θ_run defs (onTc (τ := τ) (main (F := Ideal))) ⟨m, fun _ => 0, ρ⟩ (fun r => ∀ c : Dev nD,
      r.2.mem ((c.tc : Thread nD τ).loc main_v15) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (GenP.frame_result m ρ)

end Cert.KernelIdeal.KernelValue

end
-- ==== Proof.RefValue.lean ====
/-
  The reference's result as the same three stages.

  Its first eleven operations compute the dropout-scaled linear layer: entry (p, q) is the sum over k of
  x[p, k] · W[k, q], plus the bias at q, times the scale, where the keep bit is set, and zero elsewhere —
  `Layer.hidden` of the arguments. Its next sixteen are the gather, the weighting and the scatter-add the
  kernel's program also runs between its two kernels, operation for operation: `support`. Its last
  three take the larger of each entry and zero: `Layer.relu`.
-/
import proofs.«155886_j43877385896092_1_alg».proof.Proof.Gen.ReferenceIdeal.Read
import proofs.«155886_j43877385896092_1_alg».proof.Proof.HostChain
import proofs.«155886_j43877385896092_1_alg».proof.Proof.Layer

noncomputable section

open scoped BigOperators

namespace Cert.ReferenceIdeal.RefValue

open Cert.ReferenceIdeal Cert.ReferenceIdeal.Gen Cert.ReferenceIdeal.Read Idealize.ShloMosaic Idealize.ShloMosaic.ValueIdx

variable [Cert.ReferenceIdeal.Facts] [Cert.KernelIdeal.Facts]

/-- The left factor of the product's term k at output (p, q) is x[p, k]. -/
theorem lidx_eq (p : Fin 100000) (q : Fin 64) (k : Fin 128) : lidx_main_v0 (ix2 p q) k = ix2 p k :=
  funext fun a => Fin.ext (by match a with | ⟨0, _⟩ => rfl | ⟨1, _⟩ => rfl)
/-- The right factor is W[k, q]. -/
theorem ridx_eq (p : Fin 100000) (q : Fin 64) (k : Fin 128) : ridx_main_v0 (ix2 p q) k = ix2 k q :=
  funext fun a => Fin.ext (by match a with | ⟨0, _⟩ => rfl | ⟨1, _⟩ => rfl)
/-- The bias repeated down the rows reads the bias at the column. -/
theorem bidx_eq (p : Fin 100000) (q : Fin 64) : idx_main_v1 (idx_main_v2 (ix2 p q)) = ix1 q :=
  funext fun a => Fin.ext (by match a with | ⟨0, _⟩ => rfl)

/-- The reference's masked, scaled linear stage is the layer. -/
theorem hidden_eq (x0 : (⟨S100000x128, .f32⟩ : BufTy).Contents (Elt Ideal)) (x4 : (⟨S100000x64, .i1⟩ : BufTy).Contents (Elt Ideal))
    (x5 : (⟨S128x64, .f32⟩ : BufTy).Contents (Elt Ideal)) (x6 : (⟨S64, .f32⟩ : BufTy).Contents (Elt Ideal)) :
    val_main_v6 (F := Ideal) x0 x4 x5 x6 = Layer.hidden x0 x5 x6 x4 := by
  funext i
  obtain ⟨p, q, rfl⟩ : ∃ (p : Fin 100000) (q : Fin 64), i = ix2 p q := ⟨i 0, i 1, eq_ix2 i⟩
  rw [val_main_v6_apply, val_main_v5_apply, val_main_v3_apply, val_main_v0_apply, val_main_v2_apply, val_main_v1_apply,
    val_main_v4_apply, val_main_cst_apply, val_main_call0_v1_apply, val_main_call0_v0_apply, val_main_cst_0_apply,
    Layer.hidden_ix2, bidx_eq]
  simp only [lidx_eq, ridx_eq]
  rfl

/-- The reference's gather, weighting and scatter-add are the kernel program's, operation for operation. -/
theorem support_eq {F : FTy → Type} [FloatOps F] (x0 : (⟨S100000x128, .f32⟩ : BufTy).Contents (Elt F)) (x1 x2 : (⟨S1600000, .i32⟩ : BufTy).Contents (Elt F))
    (x3 : (⟨S1600000, .f32⟩ : BufTy).Contents (Elt F)) (x4 : (⟨S100000x64, .i1⟩ : BufTy).Contents (Elt F))
    (x5 : (⟨S128x64, .f32⟩ : BufTy).Contents (Elt F)) (x6 : (⟨S64, .f32⟩ : BufTy).Contents (Elt F)) :
    val_main_v19 (F := F) x0 x1 x2 x3 x4 x5 x6
      = Cert.KernelIdeal.HostChain.support (F := F) (val_main_v6 (F := F) x0 x4 x5 x6) x1 x2 x3 := rfl

/-- THE REFERENCE'S RESULT: the activation of the messages summed from the layer's features. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S100000x64, .i1⟩ : BufTy).Contents (Elt Ideal))
    (x5 : (⟨S128x64, .f32⟩ : BufTy).Contents (Elt Ideal)) (x6 : (⟨S64, .f32⟩ : BufTy).Contents (Elt Ideal)) :
    val_main_v20 (F := Ideal) x0 x1 x2 x3 x4 x5 x6
      = Layer.relu (Cert.KernelIdeal.HostChain.support (F := Ideal) (Layer.hidden x0 x5 x6 x4) x1 x2 x3) := by
  funext i
  rw [val_main_v20_apply, val_main_call1_v0_apply, val_main_call1_cst_apply, support_eq, hidden_eq]
  rfl

end Cert.ReferenceIdeal.RefValue

end
-- ==== Proof.lean ====
/-
  A graph-convolution layer, computed two ways, gives equal results on the extended reals.

  Both programs take node features x, a weight matrix W, a bias b, a keep mask, and an edge list (row
  and column indices, edge values). Both form the dropout-scaled linear layer

      hidden[p, q] = (∑ₖ x[p, k] · W[k, q] + b[q]) · s   where keep[p, q],   0 elsewhere

  (s the single-precision float nearest 10/9, the same word in both), gather its rows along the
  column indices, weight them by the edge values, add them into the rows the row indices name, and
  take the larger of each entry and zero. The kernel program computes `hidden` in 20 row tiles of 5000
  (the half-precision roundings on the way into its product are the identity on extended reals, and
  the product accumulates into zero) and the final maximum in 10 row tiles of 10000; the reference
  computes each as one whole-array operation. The gather, weighting and scatter-add in between are
  the same operations in both and are carried as one function, never opened. No law of arithmetic
  beyond reading each tile at its place in the whole array is used, so the finiteness of the inputs
  is never needed.

  The kernel program never rewrites an argument (its frames), its idealization rewrote nothing
  (`preserves` is trivial), and the two results are one function of the arguments (`algebraic`).
-/
import proofs.«155886_j43877385896092_1_alg».proof.Defs
import proofs.«155886_j43877385896092_1_alg».proof.Proof.Gen.Kernel
import proofs.«155886_j43877385896092_1_alg».proof.Proof.Gen.Kernel.Skeleton
import proofs.«155886_j43877385896092_1_alg».proof.Proof.Gen.Kernel.Launch
import proofs.«155886_j43877385896092_1_alg».proof.Proof.Gen.Kernel.Points
import proofs.«155886_j43877385896092_1_alg».proof.Proof.Gen.Kernel.Frame
import proofs.«155886_j43877385896092_1_alg».proof.Proof.Gen.KernelIdeal
import proofs.«155886_j43877385896092_1_alg».proof.Proof.Gen.KernelIdeal.Skeleton
import proofs.«155886_j43877385896092_1_alg».proof.Proof.Gen.KernelIdeal.Launch
import proofs.«155886_j43877385896092_1_alg».proof.Proof.Gen.KernelIdeal.Points
import proofs.«155886_j43877385896092_1_alg».proof.Proof.Gen.KernelIdeal.Frame
import proofs.«155886_j43877385896092_1_alg».proof.Proof.Gen.ReferenceIdeal
import proofs.«155886_j43877385896092_1_alg».proof.Proof.Gen.ReferenceIdeal.Run
import proofs.«155886_j43877385896092_1_alg».proof.Proof.Gen.ReferenceIdeal.Read
import proofs.«155886_j43877385896092_1_alg».proof.Proof.Gen.Pre_finite_inputs
import proofs.«155886_j43877385896092_1_alg».proof.Proof.KernelValue
import proofs.«155886_j43877385896092_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the activation of the messages
    summed from the layer's features: one function of the arguments. -/
theorem algebraic : Cert.algebraic_KernelIdeal_ReferenceIdeal := by
  intro m ρ m' ρ' _ hagree
  refine ⟨fun c => Cert.KernelIdeal.KernelValue.out m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v20_eq, Cert.ReferenceIdeal.RefValue.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
